-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S8192x512, .f32⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  Scaled cosine similarity of the rows of two matrices, as one function on the extended reals.

  For rows `a, b : Fin 512 → EReal` put `‖a‖ε = max (√(∑ₖ aₖ²)) ε`, the Euclidean norm clamped from below by
  the constant `ε`, and

      cosRows a b = (∑ₖ (aₖ / ‖a‖ε) · (bₖ / ‖b‖ε)) · σ

  with `σ` the scale.  The result array holds, at `(p, q)`, `cosRows` of row `p` of the first matrix and row `q` of
  the second.  Both constants stay the binary words the programs spell; the same word stands on both sides of
  every equation below, so neither is ever evaluated.
-/
import Idealize.ShloMosaic.PureOps.Ideal
import Idealize.ShloMosaic.PureOps.Ideal.Laws
import Idealize.ShloMosaic.Lib.ValueIdx

noncomputable section

open scoped BigOperators

namespace Cert.CosineSpec

open Idealize.ShloMosaic Idealize.ShloMosaic.ValueIdx

/-- The lower clamp of a norm: the word of the single-precision number nearest `1e-8`. -/
abbrev eps : EReal := Ideal.ofBits .f32 0x322BCC77#32

/-- The scale of the similarities: the word of `16`. -/
abbrev scale : EReal := Ideal.ofBits .f32 0x41800000#32

/-- The Euclidean norm of a row, clamped from below by `eps`. -/
def rowNorm (a : Fin 512 → EReal) : EReal := max (Ideal.sqrt (∑ k : Fin 512, a k * a k)) eps

/-- The scaled cosine similarity of two rows: the inner product of the rows, each divided by its clamped norm. -/
def cosRows (a b : Fin 512 → EReal) : EReal :=
  (∑ k : Fin 512, Ideal.div (a k) (rowNorm a) * Ideal.div (b k) (rowNorm b)) * scale

/-- Row `r` of a matrix with 512 columns. -/
abbrev rowOf {R : Nat} (x : (⟨2, ![R, 512]⟩ : Shape).Idx → EReal) (r : Fin R) : Fin 512 → EReal := fun k => x (ix2 r k)

/-- The whole result: entry `(p, q)` is the similarity of row `p` of `x1` and row `q` of `x2`. -/
def G (x1 x2 : (⟨2, ![8192, 512]⟩ : Shape).Idx → EReal) : (⟨2, ![8192, 8192]⟩ : Shape).Idx → EReal :=
  fun j => cosRows (rowOf x1 (j 0)) (rowOf x2 (j 1))

theorem G_apply (x1 x2 : (⟨2, ![8192, 512]⟩ : Shape).Idx → EReal) (p q : Fin 8192) :
    G x1 x2 (ix2 p q) = cosRows (rowOf x1 p) (rowOf x2 q) := rfl

end Cert.CosineSpec

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.LibMatmulNT.lean ====
/-
  A matrix product of an `[M, K]` array by an `[N, K]` array, contracting the LAST axis of both, read at `(p, q)`:
  the sum over `k` of the left operand at `(p, k)` times the right operand at `(q, k)` — the inner product of row `p`
  of the left operand and row `q` of the right.
-/
import Idealize.ShloMosaic.PureOps.Ideal
import Idealize.ShloMosaic.PureOps.Ideal.Laws
import Idealize.ShloMosaic.Lib.ValueIdx
import proofs.«172871_j57543971832353_2_alg».proof.Proof.LibDotSum

noncomputable section

open scoped BigOperators

namespace Idealize.ShloMosaic.LibMatmulNT

open Idealize.ShloMosaic Idealize.ShloMosaic.ValueIdx

/-- The contraction sum of an `[M, K] × [N, K]` product at `(p, q)`, over the contracted coordinate.  The two facts
    about the free axes (`hl0`, `hr0`: the left operand's row is the result's row, the right operand's row the result's
    column) are read off a program's literal dimension numbers. -/
theorem contr_sum {M K N : Nat} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (x : (⟨2, ![M, K]⟩ : Shape).Idx → EReal) (y : (⟨2, ![N, K]⟩ : Shape).Idx → EReal) (p : Fin M) (q : Fin N) :
    ∑ c : D.contr.Idx, x (D.lhsIdx (ix2 p q) c) * y (D.rhsIdx (ix2 p q) c) = ∑ k : Fin K, x (ix2 p k) * y (ix2 q k) := by
  refine LibDotSum.sum_single D K hr hs x y (ix2 p q) (fun k => x (ix2 p k)) (fun k => y (ix2 q k)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k

/-- A kernel's matrix product into a zero accumulator, at `(p, q)`. -/
theorem matmul_zero_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) :=
  (Ideal.matmul_constant_zero_apply D prec x y (ix2 p q)).trans (contr_sum D hr hs hlc hrc hl0 hr0 x y p q)

/-- The host's `dot_general` of the same shape, at `(p, q)`. -/
theorem dotGeneral_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    Host.dotGeneral D prec x y (ix2 p q) = ∑ k : Fin K, x (ix2 p k) * y (ix2 q k) := by
  simp only [Host.dotGeneral]
  rw [Ideal.dotGeneral_apply]
  exact contr_sum D hr hs hlc hrc hl0 hr0 x y p q

end Idealize.ShloMosaic.LibMatmulNT

end
-- ==== Proof.Payload.lean ====
/-
  The kernel body's arithmetic, read at one entry.

  The body takes a block `v2` of 1024 rows of the first matrix and a block `v4` of 1024 rows of the second, and stores
  one 1024 × 1024 block.  Its entry `(p, q)` depends only on row `p` of `v2` and row `q` of `v4`: each row's sum of
  squares is a lane sum, its square root is clamped from below, every entry of the row is divided by that clamped
  norm (the narrowing to bf16 is the identity on extended reals), the two normalised blocks are multiplied as
  matrices contracting the column axis of BOTH (a sum over the 512 columns into a zero accumulator), and the product
  is scaled.  That is `cosRows` of the two rows.
-/
import proofs.«172871_j57543971832353_2_alg».proof.Proof.Gen.KernelIdeal.Skeleton
import proofs.«172871_j57543971832353_2_alg».proof.Proof.Spec
import proofs.«172871_j57543971832353_2_alg».proof.Proof.LibDotSum
import proofs.«172871_j57543971832353_2_alg».proof.Proof.LibColumn
import proofs.«172871_j57543971832353_2_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.CosineSpec
open Idealize.ShloMosaic Idealize.ShloMosaic.ValueIdx

/-- On the column axis, the index of `[1024, 512]` lying over row `p` with column `k` is `(p, k)`. -/
theorem lift_row (h : S1024x512.Reduces [1] S1024) (p : Fin 1024) (k : Fin 512) :
    h.lift (ix1 p) k = ix2 p k := by
  funext c
  apply Fin.ext
  show h.liftVal (ix1 p) k.val c = (ix2 p k c).val
  unfold Shape.Reduces.liftVal
  match c with
  | ⟨0, _⟩ => rfl
  | ⟨1, _⟩ => rfl

/-- A row's sum of squares: the lane sum of `v · v` from the zero word, at row `p`. -/
theorem sumsq_apply (v : FVec Ideal S1024x512 .f32) (h : S1024x512.Reduces [1] S1024) (p : Fin 1024) :
    multiReduction .add [1] S1024 (mulf v v) 0x00000000#32 h (.inl rfl) rfl (ix1 p)
      = ∑ k : Fin 512, v (ix2 p k) * v (ix2 p k) := by
  refine (Ideal.multiReduction_add_single (mulf v v) 0x00000000#32 h (.inl rfl) rfl (ix1 p)).trans ?_
  refine Finset.sum_congr rfl fun k _ => ?_
  rw [lift_row h p k]
  rfl

/-- The clamped norm, kept as a column `[1024, 1]`: at `(p, u)` it is `rowNorm` of row `p`. -/
theorem norm_apply (v : FVec Ideal S1024x512 .f32) (h : S1024x512.Reduces [1] S1024) (hc : S1024.ShapeCasts S1024x1)
    (p : Fin 1024) (u : Fin 1) :
    maximumf (sqrt (shapeCast S1024x1 (multiReduction .add [1] S1024 (mulf v v) 0x00000000#32 h (.inl rfl) rfl) hc))
        (broadcast S1024x1 (Scalar.ofBits (F := Ideal) .f32 0x322BCC77#32)) (ix2 p u)
      = rowNorm (fun k => v (ix2 p k)) := by
  show max (Ideal.sqrt (shapeCast S1024x1 (multiReduction .add [1] S1024 (mulf v v) 0x00000000#32 h (.inl rfl) rfl) hc (ix2 p u))) _ = _
  rw [LibColumn.shapeCast_a_a1_apply _ hc p u, sumsq_apply v h p]
  rfl

/-- A block divided row by row by a column: at `(p, k)` the entry over the column's entry of row `p`. -/
theorem normalised_apply (v : FVec Ideal S1024x512 .f32) (n : FVec Ideal S1024x1 .f32) (hb : S1024x1.Broadcasts S1024x512)
    (hlt : FTy.bits .bf16 < FTy.bits .f32) (p : Fin 1024) (k : Fin 512) :
    (truncf .bf16 (divf v (broadcastTo S1024x512 n hb)) hlt : FVec Ideal S1024x512 .bf16) (ix2 p k)
      = Ideal.div (v (ix2 p k)) (n (ix2 p (0 : Fin 1))) := by
  show Ideal.div (v (ix2 p k)) (broadcastTo S1024x512 n hb (ix2 p k)) = _
  rw [broadcastTo_apply n hb (ix2 p k) (ix2 p (0 : Fin 1)) (fun a => by
    match a with
    | ⟨0, _⟩ => rfl
    | ⟨1, _⟩ => rfl)]

/-- In the body's product the left operand's row is the result's row … -/
theorem dot_lhs_row (j : S1024x1024.Idx) (c : dot_S1024x512_S1024x512_S1024x1024_1_1_0_0_n_n.contr.Idx) :
    (dot_S1024x512_S1024x512_S1024x1024_1_1_0_0_n_n.lhsIdx j c 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- … and the right operand's row is the result's column. -/
theorem dot_rhs_row (j : S1024x1024.Idx) (c : dot_S1024x512_S1024x512_S1024x1024_1_1_0_0_n_n.contr.Idx) :
    (dot_S1024x512_S1024x512_S1024x1024_1_1_0_0_n_n.rhsIdx j c 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The body's matrix product into the zero block, at `(p, q)`: the inner product of row `p` of the left operand and
    row `q` of the right. -/
theorem matmul_rows (a b : FVec Ideal S1024x512 .bf16) (p q : Fin 1024) :
    matmul dot_S1024x512_S1024x512_S1024x1024_1_1_0_0_n_n none a b (constant (F := Ideal) S1024x1024 .f32 0x00000000#32) (ix2 p q)
      = ∑ k : Fin 512, a (ix2 p k) * b (ix2 q k) :=
  LibMatmulNT.matmul_zero_apply dot_S1024x512_S1024x512_S1024x1024_1_1_0_0_n_n rfl rfl rfl rfl dot_lhs_row dot_rhs_row none a b p q

/-- THE BODY'S STORED BLOCK at `(p, q)` is the scaled cosine similarity of row `p` of its first block and row `q` of
    its second. -/
theorem pay_apply (v2 v4 : Vec Ideal S1024x512 .f32) (p q : Fin 1024) :
    k0_pay1 (F := Ideal) v2 v4 (ix2 p q) = cosRows (fun k => v2 (ix2 p k)) (fun k => v4 (ix2 q k)) := by
  unfold k0_pay1
  refine (congrArg (· * scale) (matmul_rows _ _ p q)).trans ?_
  unfold cosRows
  refine congrArg (· * scale) (Finset.sum_congr rfl fun k _ => ?_)
  refine congrArg₂ (· * ·) ?_ ?_
  · exact (normalised_apply v2 _ _ _ p k).trans (congrArg (Ideal.div _) (norm_apply v2 _ _ p 0))
  · exact (normalised_apply v4 _ _ _ q k).trans (congrArg (Ideal.div _) (norm_apply v4 _ _ q 0))

end Cert.KernelIdeal.Payload

end
-- ==== Proof.KernelBlocks.lean ====
/-
  The blocks the kernel body works on, as rows of the two matrices.

  The grid has 8 × 8 points.  At point `(i, j)` the body reads rows `1024 i … 1024 i + 1023` of the first matrix (its
  block of the first window) and, out of the whole second matrix held in one buffer, the slab of rows
  `1024 j … 1024 j + 1023`.  Its one store covers the output block, so what the body leaves there is its arithmetic of
  that block and that slab.
-/
import proofs.«172871_j57543971832353_2_alg».proof.Proof.Gen.KernelIdeal.Value
import proofs.«172871_j57543971832353_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cosine

open Cert.KernelIdeal Cert.KernelIdeal.Gen Cert.CosineSpec Idealize.ShloMosaic.ValueIdx

theorem hz : (![0, 0] : Fin 2 → Nat) = fun _ => 0 := funext fun a => by fin_cases a <;> rfl

/-- The body's one store covers its output block, so what it leaves there is its payload: the arithmetic of the first
    window's block `x0` and of the slab of the second window's buffer `x1` that the body loads. -/
theorem out_A {F : FTy → Type} [FloatOps F] (c : Dev nD) (i : grid0.Coords)
    (a2 : Memref sig .tc .vmem S1024x512 .f32) (h2 : a2.IsWhole)
    (a3 : Memref sig .tc .vmem S8192x512 .f32) (h3 : a3.IsWhole) (a4 : Memref sig .tc .vmem S1024x1024 .f32) (h4 : a4.IsWhole)
    (x0 : Vec F S1024x512 .f32) (x1 : Vec F S8192x512 .f32) :
    out0_A_2 c i a2 h2 a3 h3 a4 h4 x0 x1
      = k0_pay1 x0 (View.ld x1 (Rect.unit (s := S8192x512) (k0_off1 i) S1024x512.size (k0_off1_inb i))) := by
  unfold out0_A_2
  rw [View.read_writes_eq_canon _ _ _ (cover0_A_2 c i a2 h2 a3 h3 a4 h4 x0 x1)]
  unfold kernelRun0_A
  dsimp only
  rw [View.canon_unit_zero hz]
  simp only [View.readAt_eq_ld, h2.read_unread, h3.read_unread, View.ld_unit_zero (S := S1024x512) hz]

variable (m : (ℓ : Loc nD τ sig) → Buf (Elt Ideal) ℓ) (ρ : Dev nD → PrngReg)

/-- The printed index maps over the 64 points: the first window's row block is the output's row block; the second
    window is the whole matrix at every point; the body's slab starts at 1024 times the output's column block. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ k0_off1 (grid0.coords t) (0 : Fin 2) = win0_2.index t (1 : Fin 2) * 1024 ∧ k0_off1 (grid0.coords t) (1 : Fin 2) = 0
    ∧ win0_2.index t (0 : Fin 2) ≤ 7 ∧ win0_2.index t (1 : Fin 2) ≤ 7 :=
  (by decide +kernel : ∀ t : Fin grid0.N, _)

/-- Every one of the 8 × 8 blocks of the result is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row `p` of the first window's block at point `t` is row `1024 i + p` of the first matrix. -/
theorem blk0_row (c : Dev nD) (t : Fin cfg0.N) (p : Fin 1024) (k : Fin 512)
    (hlt : win0_2.index t (0 : Fin 2) * 1024 + p.val < 8192) :
    iblk m c 0 t (ix2 p k) = V m c main_arg0 (ix2 (⟨win0_2.index t (0 : Fin 2) * 1024 + p.val, hlt⟩ : Fin 8192) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = win0_2.index t (0 : Fin 2) * 1024 + p.val; rw [e0]; omega
  | ⟨1, _⟩ => show win0_0.index t (1 : Fin 2) * 512 + 1 * k.val = k.val; rw [e1]; omega

/-- Row `q` of the slab the body loads out of the second window's buffer at point `t` is row `1024 j + q` of the
    second matrix: the buffer holds the whole matrix, and the slab starts at row `1024 j`. -/
theorem slab_row (c : Dev nD) (t : Fin cfg0.N) (q : Fin 1024) (k : Fin 512)
    (hlt : win0_2.index t (1 : Fin 2) * 1024 + q.val < 8192) :
    View.ld (iblk m c 1 t) (Rect.unit (s := S8192x512) (k0_off1 (grid0.coords t)) S1024x512.size (k0_off1_inb (grid0.coords t))) (ix2 q k)
      = V m c main_arg1 (ix2 (⟨win0_2.index t (1 : Fin 2) * 1024 + q.val, hlt⟩ : Fin 8192) k) := by
  obtain ⟨-, -, e2, e3, e4, e5, -⟩ := idx_facts t
  show iblk m c 1 t ((Rect.unit (s := S8192x512) (k0_off1 (grid0.coords t)) S1024x512.size (k0_off1_inb (grid0.coords t))).emb (ix2 q k)) = _
  unfold iblk
  rw [View.read_apply]
  show V m c main_arg1 _ = V m c main_arg1 _
  refine congrArg (V m c main_arg1) (funext fun a => Fin.ext ?_)
  match a with
  | ⟨0, _⟩ =>
    show win0_1.index t (0 : Fin 2) * 8192 + 1 * (k0_off1 (grid0.coords t) (0 : Fin 2) + 1 * q.val) = win0_2.index t (1 : Fin 2) * 1024 + q.val
    rw [e2, e4]; omega
  | ⟨1, _⟩ =>
    show win0_1.index t (1 : Fin 2) * 512 + 1 * (k0_off1 (grid0.coords t) (1 : Fin 2) + 1 * k.val) = k.val
    rw [e3, e5]; omega

/-- One entry of a block, over plain data: if row `p` of `A` is row `1024 bi + p` of `X1` and row `q` of `B` is row
    `1024 bj + q` of `X2`, the body's arithmetic of `A` and `B` at `(p, q)` is `G X1 X2` at `(1024 bi + p, 1024 bj + q)`. -/
theorem entry_eq (X1 X2 : S8192x512.Idx → EReal) (A B : Vec Ideal S1024x512 .f32) (bi bj : Nat) (p q : Fin 1024)
    (hp : bi * 1024 + p.val < 8192) (hq : bj * 1024 + q.val < 8192)
    (hA : ∀ k : Fin 512, A (ix2 p k) = X1 (ix2 (⟨bi * 1024 + p.val, hp⟩ : Fin 8192) k))
    (hB : ∀ k : Fin 512, B (ix2 q k) = X2 (ix2 (⟨bj * 1024 + q.val, hq⟩ : Fin 8192) k)) :
    k0_pay1 (F := Ideal) A B (ix2 p q)
      = G X1 X2 (ix2 (⟨bi * 1024 + p.val, hp⟩ : Fin 8192) (⟨bj * 1024 + q.val, hq⟩ : Fin 8192)) :=
  (Payload.pay_apply A B p q).trans (congrArg₂ cosRows (funext hA) (funext hB))

end Cert.KernelIdeal.Cosine

end
-- ==== Proof.KernelValue.lean ====
/-
  What the kernel's result array holds after the run.

  At point `(i, j)` the body writes block `(i, j)` of the result.  Entry `(p, q)` of that block is the scaled cosine
  similarity of row `p` of the first window's block and row `q` of the slab of the second matrix, that is of rows
  `1024 i + p` and `1024 j + q` of the two matrices: the block is the restriction of the one function `G` of the two
  matrices.  The 64 blocks tile the result, so the result array is `G`.
-/
import proofs.«172871_j57543971832353_2_alg».proof.Proof.KernelBlocks

set_option maxRecDepth 16384

noncomputable section

open Idealize.ShloMosaic Idealize.ShloMosaic.TcCoe Idealize.SL.Sem
open Idealize.ShloMosaic.Pipeline (Dat)

namespace Cert.KernelIdeal.Cosine

open Cert.KernelIdeal Cert.KernelIdeal.Gen Cert.CosineSpec Idealize.ShloMosaic.ValueIdx

variable (m : (ℓ : Loc nD τ sig) → Buf (Elt Ideal) ℓ) (ρ : Dev nD → PrngReg)

/-- WHAT POINT `t` WRITES BACK is block `t` of `G` of the two matrices as the region finds them. -/
theorem flushed_eq (c : Dev nD) (t : Fin cfg0.N) :
    (dats m 0 c).flushed 2 t = ((cfg0.win 2).blk t).view.read (Elt Ideal) (G (V m c main_arg0) (V m c main_arg1)) := by
  refine (Cert.KernelIdeal.Value.flushed2_A m c t).trans ?_
  refine (congrArg ((cfg0.win 2).cut (grid0.coords t))
    (out_A c (grid0.coords t) (ms0_0 t) (hs0_0 t) (ms0_1 t) (hs0_1 t) (ms0_2 t) (hs0_2 t) (iblk m c 0 t) (iblk m c 1 t))).trans ?_
  obtain ⟨-, -, -, -, -, -, b0, b1⟩ := idx_facts t
  funext y
  have hy0 : (y 0).val < 1024 := (y 0).isLt
  have hy1 : (y 1).val < 1024 := (y 1).isLt
  have hy : y = ix2 (⟨(y 0).val, hy0⟩ : Fin 1024) (⟨(y 1).val, hy1⟩ : Fin 1024) :=
    funext fun a => by match a with | ⟨0, _⟩ => rfl | ⟨1, _⟩ => rfl
  have hemb : ((cfg0.win 2).blk t).view.emb y
      = ix2 (⟨win0_2.index t (0 : Fin 2) * 1024 + (y 0).val, by omega⟩ : Fin 8192)
          (⟨win0_2.index t (1 : Fin 2) * 1024 + (y 1).val, by omega⟩ : Fin 8192) :=
    funext fun a => Fin.ext (by
      match a with
      | ⟨0, _⟩ => show win0_2.index t (0 : Fin 2) * 1024 + 1 * (y 0).val = win0_2.index t (0 : Fin 2) * 1024 + (y 0).val; omega
      | ⟨1, _⟩ => show win0_2.index t (1 : Fin 2) * 1024 + 1 * (y 1).val = win0_2.index t (1 : Fin 2) * 1024 + (y 1).val; omega)
  show k0_pay1 (F := Ideal) (iblk m c 0 t) (View.ld (iblk m c 1 t) (Rect.unit (s := S8192x512) (k0_off1 (grid0.coords t)) S1024x512.size (k0_off1_inb (grid0.coords t)))) y
    = G (V m c main_arg0) (V m c main_arg1) (((cfg0.win 2).blk t).view.emb y)
  refine (congrArg (k0_pay1 (F := Ideal) (iblk m c 0 t) (View.ld (iblk m c 1 t) (Rect.unit (s := S8192x512) (k0_off1 (grid0.coords t)) S1024x512.size (k0_off1_inb (grid0.coords t))))) hy).trans ?_
  refine Eq.trans ?_ (congrArg (G (V m c main_arg0) (V m c main_arg1)) hemb.symm)
  exact entry_eq (V m c main_arg0) (V m c main_arg1) (iblk m c 0 t) (View.ld (iblk m c 1 t) (Rect.unit (s := S8192x512) (k0_off1 (grid0.coords t)) S1024x512.size (k0_off1_inb (grid0.coords t))))
    (win0_2.index t (0 : Fin 2)) (win0_2.index t (1 : Fin 2)) ⟨(y 0).val, hy0⟩ ⟨(y 1).val, hy1⟩ (by omega) (by omega)
    (fun k => blk0_row m c t ⟨(y 0).val, hy0⟩ k (by omega)) (fun k => slab_row m c t ⟨(y 1).val, hy1⟩ k (by omega))

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The 64 blocks cover the result: entry `(r, s)` lies in the block of the point with block index `(r / 1024, s / 1024)`. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is `G` of the two argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) (cover)

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Cosine

end
-- ==== Proof.RefValue.lean ====
/-
  The reference computes the same function.

  The reference normalises every row of each matrix — sum of squares along the row from the zero word, square root,
  clamp from below, divide the row by the clamped norm —, multiplies the two normalised matrices contracting the column
  axis of both, and scales.  Entry `(p, q)` of its result is `scale · ∑ₖ (x1[p,k] / ‖x1[p]‖ε) · (x2[q,k] / ‖x2[q]‖ε)`,
  which is `cosRows` of the two rows up to the order of the last product.
-/
import proofs.«172871_j57543971832353_2_alg».proof.Proof.Gen.ReferenceIdeal.Read
import proofs.«172871_j57543971832353_2_alg».proof.Proof.Spec

noncomputable section

open scoped BigOperators

namespace Cert.ReferenceIdeal.Cosine

open Cert.ReferenceIdeal Cert.ReferenceIdeal.Read Cert.CosineSpec
open Idealize.ShloMosaic Idealize.ShloMosaic.ValueIdx

/-- The first matrix's clamped norms, a column `[8192, 1]`: at `(p, u)` the clamped norm of row `p`. -/
theorem norm0_apply (x0 : (⟨S8192x512, .f32⟩ : BufTy).Contents (Elt Ideal)) (p : Fin 8192) (u : Fin 1) :
    val_main_v2 (F := Ideal) x0 (ix2 p u) = rowNorm (rowOf x0 p) := by
  have e : ∀ k : Fin 512, idx_main_call0_v1 (idx_main_call0_v2 (ix2 p u)) k = ix2 p k := fun k =>
    funext fun a => Fin.ext (by match a with | ⟨0, _⟩ => rfl | ⟨1, _⟩ => rfl)
  rw [val_main_v2_apply, val_main_v0_apply, val_main_call0_v2_apply, val_main_call0_v1_apply, val_main_v1_apply]
  simp only [val_main_call0_v0_apply, val_main_call0_cst_apply, val_main_cst_apply, e, Ideal.maximumf_def,
    Ideal.hostUnary_sqrt_def, Ideal.mulf_def, Ideal.ofBits_def, Ideal.ofBits_zero_f32, zero_add]
  rfl

/-- The second matrix's clamped norms, likewise. -/
theorem norm1_apply (x1 : (⟨S8192x512, .f32⟩ : BufTy).Contents (Elt Ideal)) (q : Fin 8192) (u : Fin 1) :
    val_main_v5 (F := Ideal) x1 (ix2 q u) = rowNorm (rowOf x1 q) := by
  have e : ∀ k : Fin 512, idx_main_call1_v1 (idx_main_call1_v2 (ix2 q u)) k = ix2 q k := fun k =>
    funext fun a => Fin.ext (by match a with | ⟨0, _⟩ => rfl | ⟨1, _⟩ => rfl)
  rw [val_main_v5_apply, val_main_v3_apply, val_main_call1_v2_apply, val_main_call1_v1_apply, val_main_v4_apply]
  simp only [val_main_call1_v0_apply, val_main_call1_cst_apply, val_main_cst_0_apply, e, Ideal.maximumf_def,
    Ideal.hostUnary_sqrt_def, Ideal.mulf_def, Ideal.ofBits_def, Ideal.ofBits_zero_f32, zero_add]
  rfl

/-- THE REFERENCE'S RESULT is `G` of its two arguments. -/
theorem result_eq (x0 x1 : (⟨S8192x512, .f32⟩ : BufTy).Contents (Elt Ideal)) :
    val_main_v12 (F := Ideal) x0 x1 = G x0 x1 := by
  funext j
  obtain ⟨p, q, rfl⟩ : ∃ (p q : Fin 8192), j = ix2 p q := ⟨j 0, j 1, eq_ix2 j⟩
  have el : ∀ k : Fin 512, lidx_main_v10 (ix2 p q) k = ix2 p k := fun k =>
    funext fun a => Fin.ext (by match a with | ⟨0, _⟩ => rfl | ⟨1, _⟩ => rfl)
  have er : ∀ k : Fin 512, ridx_main_v10 (ix2 p q) k = ix2 q k := fun k =>
    funext fun a => Fin.ext (by match a with | ⟨0, _⟩ => rfl | ⟨1, _⟩ => rfl)
  have e6 : ∀ k : Fin 512, idx_main_v6 (ix2 p k) = ix2 p (0 : Fin 1) := fun k =>
    funext fun a => Fin.ext (by match a with | ⟨0, _⟩ => rfl | ⟨1, _⟩ => rfl)
  have e8 : ∀ k : Fin 512, idx_main_v8 (ix2 q k) = ix2 q (0 : Fin 1) := fun k =>
    funext fun a => Fin.ext (by match a with | ⟨0, _⟩ => rfl | ⟨1, _⟩ => rfl)
  rw [G_apply, val_main_v12_apply, val_main_v11_apply, val_main_v10_apply]
  simp only [val_main_cst_1_apply, val_main_v7_apply, val_main_v9_apply, val_main_v6_apply, val_main_v8_apply, el, er, e6, e8,
    norm0_apply, norm1_apply, Ideal.mulf_def, Ideal.hostDivf_def, Ideal.ofBits_def]
  unfold cosRows
  exact mul_comm _ _

end Cert.ReferenceIdeal.Cosine

end
-- ==== Proof.lean ====
/-
  Scaled pairwise cosine similarity of the rows of two 8192 × 512 matrices: the kernel and the reference compute the
  same function on the extended reals.

  Both programs clamp each row's Euclidean norm from below by the same constant, divide the row by it, take the inner
  products of the normalised rows of the first matrix with those of the second, and multiply by the same scale.  The
  kernel does this block by block: at grid point `(i, j)` it normalises rows `1024 i …` of the first matrix and rows
  `1024 j …` of the second and writes block `(i, j)` of the result; the reference normalises the whole matrices once
  and takes one matrix product.  Entry `(p, q)` of the result depends only on row `p` of the first matrix and row `q`
  of the second, so every block is a restriction of the one function `G`, and the blocks tile the result.  Index by
  index the two sides are the same sums of the same terms; the only law used between them is the commutativity of the
  last product (the kernel scales on the right, the reference on the left), which holds for all extended reals, so the
  inputs' finiteness is never needed.  The idealisation of the kernel rewrote nothing.
-/
import proofs.«172871_j57543971832353_2_alg».proof.Defs
import proofs.«172871_j57543971832353_2_alg».proof.Proof.Gen.Kernel
import proofs.«172871_j57543971832353_2_alg».proof.Proof.Gen.Kernel.Skeleton
import proofs.«172871_j57543971832353_2_alg».proof.Proof.Gen.Kernel.Launch
import proofs.«172871_j57543971832353_2_alg».proof.Proof.Gen.Kernel.Points
import proofs.«172871_j57543971832353_2_alg».proof.Proof.Gen.Kernel.Frame
import proofs.«172871_j57543971832353_2_alg».proof.Proof.Gen.KernelIdeal
import proofs.«172871_j57543971832353_2_alg».proof.Proof.Gen.KernelIdeal.Skeleton
import proofs.«172871_j57543971832353_2_alg».proof.Proof.Gen.KernelIdeal.Launch
import proofs.«172871_j57543971832353_2_alg».proof.Proof.Gen.KernelIdeal.Points
import proofs.«172871_j57543971832353_2_alg».proof.Proof.Gen.KernelIdeal.Frame
import proofs.«172871_j57543971832353_2_alg».proof.Proof.Gen.ReferenceIdeal
import proofs.«172871_j57543971832353_2_alg».proof.Proof.Gen.Pre_finite_inputs
import proofs.«172871_j57543971832353_2_alg».proof.Proof.Gen.KernelIdeal.Value
import proofs.«172871_j57543971832353_2_alg».proof.Proof.Gen.ReferenceIdeal.Run
import proofs.«172871_j57543971832353_2_alg».proof.Proof.Gen.ReferenceIdeal.Read
import proofs.«172871_j57543971832353_2_alg».proof.Proof.KernelValue
import proofs.«172871_j57543971832353_2_alg».proof.Proof.RefValue
import Idealize.ShloMosaic.Adequacy
import Idealize.ShloMosaic.Init

noncomputable section

namespace Cert.Proof

open Idealize.ShloMosaic Idealize.SL.Sem

/-- The kernel as printed runs to the end with its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs to the end with its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealised. -/
theorem preserves : Cert.preserves_Kernel_KernelIdeal := trivial

/-- On the extended reals the kernel's result array ends at `G` of its two arguments and the reference's at its
    composed term of arguments that agree with them, which is `G` of the same two arrays. -/
theorem algebraic : Cert.algebraic_KernelIdeal_ReferenceIdeal := by
  intro m ρ m' ρ' _ hagree
  refine ⟨fun c => Cert.CosineSpec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Cosine.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
